-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S512x512 : Shape := ⟨2, ![512, 512]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S64x512x512 .f32) (main_arg1 : FVec F S512x512 .f32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S64x512x512 : Shape := ⟨3, ![64, 512, 512]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 3
  | .vmem => 5
  | .smem => 0
  | _ => 0

abbrev bufTy : (tb : Table) → Fin (tcTables nBuf tb) → BufTy
  | .hbm, ⟨0, _⟩ => ⟨S64x512x512, .f32⟩
  | .hbm, ⟨1, _⟩ => ⟨S512x512, .f32⟩
  | .hbm, ⟨2, _⟩ => ⟨S64x512x512, .f32⟩
  | .local _ .vmem, ⟨0, _⟩ => ⟨S1x512x512, .f32⟩
  | .local _ .vmem, ⟨1, _⟩ => ⟨S1x512x512, .f32⟩
  | .local _ .vmem, ⟨2, _⟩ => ⟨S512x512, .f32⟩
  | .local _ .vmem, ⟨3, _⟩ => ⟨S1x512x512, .f32⟩
  | .local _ .vmem, ⟨4, _⟩ => ⟨S1x512x512, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  broadcasts_S1x1_S512x512 : S1x1.Broadcasts S512x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  shapeCasts_S512x512_S1x512x512 : S512x512.ShapeCasts S1x512x512
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S64x512x512.size a
  hwx0_0 : ∀ i : grid0.Coords, EltTy.bits .f32 = 32 ∨ (Rect.block (s := S64x512x512) S1x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S64x512x512.size a
  hwx0_2 : ∀ i : grid0.Coords, EltTy.bits .f32 = 32 ∨ (Rect.block (s := S64x512x512) S1x512x512.size (cc0_transform_2 i) (hinb0_2 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x512x512 : Shape := ⟨3, ![64, 512, 512]⟩
abbrev S512x512 : Shape := ⟨2, ![512, 512]⟩
abbrev S_ : Shape := ⟨0, ![]⟩
abbrev S64 : Shape := ⟨1, ![64]⟩
abbrev S64x1x1 : Shape := ⟨3, ![64, 1, 1]⟩

abbrev nBuf : Space → Nat
  | .hbm => 63
  | .vmem => 0
  | .smem => 0
  | _ => 0

abbrev bufTy : (tb : Table) → Fin (tcTables nBuf tb) → BufTy
  | .hbm, ⟨0, _⟩ => ⟨S64x512x512, .f32⟩
  | .hbm, ⟨1, _⟩ => ⟨S512x512, .f32⟩
  | .hbm, ⟨2, _⟩ => ⟨S64x512x512, .f32⟩
  | .hbm, ⟨3, _⟩ => ⟨S_, .f32⟩
  | .hbm, ⟨4, _⟩ => ⟨S64, .f32⟩
  | .hbm, ⟨5, _⟩ => ⟨S64x1x1, .f32⟩
  | .hbm, ⟨6, _⟩ => ⟨S64x1x1, .f32⟩
  | .hbm, ⟨7, _⟩ => ⟨S64x512x512, .f32⟩
  | .hbm, ⟨8, _⟩ => ⟨S64x512x512, .f32⟩
  | .hbm, ⟨9, _⟩ => ⟨S64x512x512, .f32⟩
  | .hbm, ⟨10, _⟩ => ⟨S_, .f32⟩
  | .hbm, ⟨11, _⟩ => ⟨S64x512x512, .f32⟩
  | .hbm, ⟨12, _⟩ => ⟨S64x512x512, .f32⟩
  | .hbm, ⟨13, _⟩ => ⟨S64x512x512, .f32⟩
  | .hbm, ⟨14, _⟩ => ⟨S64x512x512, .f32⟩
  | .hbm, ⟨15, _⟩ => ⟨S_, .f32⟩
  | .hbm, ⟨16, _⟩ => ⟨S64x512x512, .f32⟩
  | .hbm, ⟨17, _⟩ => ⟨S64x512x512, .f32⟩
  | .hbm, ⟨18, _⟩ => ⟨S64x512x512, .f32⟩
  | .hbm, ⟨19, _⟩ => ⟨S64x512x512, .f32⟩
  | .hbm, ⟨20, _⟩ => ⟨S_, .f32⟩
  | .hbm, ⟨21, _⟩ => ⟨S64x512x512, .f32⟩
  | .hbm, ⟨22, _⟩ => ⟨S64x512x512, .f32⟩
  | .hbm, ⟨23, _⟩ => ⟨S64x512x512, .f32⟩
  | .hbm, ⟨24, _⟩ => ⟨S64x512x512, .f32⟩
  | .hbm, ⟨25, _⟩ => ⟨S_, .f32⟩
  | .hbm, ⟨26, _⟩ => ⟨S64x512x512, .f32⟩
  | .hbm, ⟨27, _⟩ => ⟨S64x512x512, .f32⟩
  | .hbm, ⟨28, _⟩ => ⟨S64x512x512, .f32⟩
  | .hbm, ⟨29, _⟩ => ⟨S64x512x512, .f32⟩
  | .hbm, ⟨30, _⟩ => ⟨S_, .f32⟩
  | .hbm, ⟨31, _⟩ => ⟨S64x512x512, .f32⟩
  | .hbm, ⟨32, _⟩ => ⟨S64x512x512, .f32⟩
  | .hbm, ⟨33, _⟩ => ⟨S64x512x512, .f32⟩
  | .hbm, ⟨34, _⟩ => ⟨S64x512x512, .f32⟩
  | .hbm, ⟨35, _⟩ => ⟨S_, .f32⟩
  | .hbm, ⟨36, _⟩ => ⟨S64x512x512, .f32⟩
  | .hbm, ⟨37, _⟩ => ⟨S64x512x512, .f32⟩
  | .hbm, ⟨38, _⟩ => ⟨S64x512x512, .f32⟩
  | .hbm, ⟨39, _⟩ => ⟨S64x512x512, .f32⟩
  | .hbm, ⟨40, _⟩ => ⟨S_, .f32⟩
  | .hbm, ⟨41, _⟩ => ⟨S64x512x512, .f32⟩
  | .hbm, ⟨42, _⟩ => ⟨S64x512x512, .f32⟩
  | .hbm, ⟨43, _⟩ => ⟨S64x512x512, .f32⟩
  | .hbm, ⟨44, _⟩ => ⟨S64x512x512, .f32⟩
  | .hbm, ⟨45, _⟩ => ⟨S_, .f32⟩
  | .hbm, ⟨46, _⟩ => ⟨S64x512x512, .f32⟩
  | .hbm, ⟨47, _⟩ => ⟨S64x512x512, .f32⟩
  | .hbm, ⟨48, _⟩ => ⟨S64x512x512, .f32⟩
  | .hbm, ⟨49, _⟩ => ⟨S64x512x512, .f32⟩
  | .hbm, ⟨50, _⟩ => ⟨S_, .f32⟩
  | .hbm, ⟨51, _⟩ => ⟨S64x512x512, .f32⟩
  | .hbm, ⟨52, _⟩ => ⟨S64x512x512, .f32⟩
  | .hbm, ⟨53, _⟩ => ⟨S64x512x512, .f32⟩
  | .hbm, ⟨54, _⟩ => ⟨S64x512x512, .f32⟩
  | .hbm, ⟨55, _⟩ => ⟨S_, .f32⟩
  | .hbm, ⟨56, _⟩ => ⟨S64x512x512, .f32⟩
  | .hbm, ⟨57, _⟩ => ⟨S64x512x512, .f32⟩
  | .hbm, ⟨58, _⟩ => ⟨S64x512x512, .f32⟩
  | .hbm, ⟨59, _⟩ => ⟨S64x512x512, .f32⟩
  | .hbm, ⟨60, _⟩ => ⟨S64x1x1, .f32⟩
  | .hbm, ⟨61, _⟩ => ⟨S64x512x512, .f32⟩
  | .hbm, ⟨62, _⟩ => ⟨S64x512x512, .f32⟩
  | _, _ => ⟨S64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_7 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_8 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_9 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩

abbrev nD : Nat := 1
abbrev τ : Topo := Topo.v7x

variable {F : FTy → Type} [FloatOps F]

class Facts₀ : Prop where
  reducesTo_S64x512x512_S64_d1_2 : S64x512x512.ReducesTo [1, 2] S64
  h_S_ : 0 < S_.numel
  bcast_S64_S64x1x1_0 : S64.BroadcastsInDim S64x1x1 (![0] : Fin 1 → Fin S64x1x1.rank)
  bcast_S64x1x1_S64x512x512_0_1_2 : S64x1x1.BroadcastsInDim S64x512x512 (![0, 1, 2] : Fin 3 → Fin S64x512x512.rank)
  bcast_S512x512_S64x512x512_1_2 : S512x512.BroadcastsInDim S64x512x512 (![1, 2] : Fin 2 → Fin S64x512x512.rank)
  bcast_S_S64x512x512 : S_.BroadcastsInDim S64x512x512 (![] : Fin 0 → Fin S64x512x512.rank)
  dot_S64x512x512_S64x512x512_S64x512x512_2_1_1_2_0_0_wf : DotDims.WF S64x512x512 S64x512x512 S64x512x512 [2] [1] [1] [2] [0] [0]

variable [Facts₀]

def dot_S64x512x512_S64x512x512_S64x512x512_2_1_1_2_0_0 : DotDims S64x512x512 S64x512x512 S64x512x512 where
  lhsContracting := [2]
  rhsContracting := [1]
  lhsNonContracting := [1]
  rhsNonContracting := [2]
  lhsBatch := [0]
  rhsBatch := [0]
  wf := dot_S64x512x512_S64x512x512_S64x512x512_2_1_1_2_0_0_wf

class Facts : Prop extends Facts₀ where

variable [Facts]
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.BatchSlice.lean ====
/-
  One matrix of a stack.  The reference works on a stack of 64 matrices of size 512 x 512 at once; the kernel works on one
  matrix per grid point.  This module reads every operation of the stacked program on matrix `b` of the stack:
  a pointwise operation acts matrix by matrix; a scalar spread over the stack is that scalar spread over one matrix; one
  matrix repeated 64 times gives that matrix back; a batched matrix product is, on matrix `b`, the product of the two
  operands' matrices `b` (the same sum over the 512 inner positions); a per-matrix number spread over its matrix is
  that number spread over one matrix; and the sum of squares over the two matrix axes is the sum over the rows of
  the sums over each row (addition of extended reals is commutative and associative, so the grouping does not matter).
  A change of float format is the identity on extended reals, so the kernel's narrowing of the product's operands
  changes nothing.
-/
import proofs.«124815_j62749472194673_1_alg».proof.Proof.Gen.KernelIdeal
import proofs.«124815_j62749472194673_1_alg».proof.Proof.Gen.ReferenceIdeal
import proofs.«124815_j62749472194673_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.BatchSlice

open Idealize.ShloMosaic Idealize.ShloMosaic.ValueIdx
open Cert.ReferenceIdeal (S64x512x512 S64x1x1 S64 S_)
open Cert.KernelIdeal (S512x512 S1x512x512 S512 S512x1 S1 S1x1)
open scoped BigOperators

variable {α : Type}

/-- The batched product's dimension numbers (batch axis 0, rows axis 1, inner axis 2 against inner axis 1, columns axis 2)
    and the single product's (rows, inner against inner, columns). -/
abbrev D3 := Cert.ReferenceIdeal.dot_S64x512x512_S64x512x512_S64x512x512_2_1_1_2_0_0
abbrev D2 := Cert.KernelIdeal.dot_S512x512_S512x512_S512x512_1_0_0_1_n_n

/-! ## Matrix `b` of a stack, and entry `b` of a stack of numbers -/

/-- Matrix `b` of a stack of 64 matrices. -/
def mat (b : Fin 64) (A : S64x512x512.Idx → α) : S512x512.Idx → α := fun ij => A (ix3 b (ij 0) (ij 1))

theorem mat_apply (b : Fin 64) (A : S64x512x512.Idx → α) (i j : Fin 512) : mat b A (ix2 i j) = A (ix3 b i j) := rfl

/-- Number `b` of a stack of 64 numbers (kept with two unit axes), as a one-by-one matrix. -/
def cell (b : Fin 64) (s : S64x1x1.Idx → α) : S1x1.Idx → α := fun _ => s (ix3 b (0 : Fin 1) (0 : Fin 1))

/-! ## Pointwise operations act matrix by matrix -/

theorem mat_mulf (b : Fin 64) (A B : FVec Ideal S64x512x512 .f32) : mat b (mulf A B) = mulf (mat b A) (mat b B) := rfl
theorem mat_subf (b : Fin 64) (A B : FVec Ideal S64x512x512 .f32) : mat b (subf A B) = subf (mat b A) (mat b B) := rfl
/-- The host's quotient and the kernel's are one function of extended reals. -/
theorem mat_hostDivf (b : Fin 64) (A B : FVec Ideal S64x512x512 .f32) : mat b (Host.divf A B) = divf (mat b A) (mat b B) := rfl
/-- The host's square root and the kernel's are one function of extended reals. -/
theorem cell_hostSqrt (b : Fin 64) (s : FVec Ideal S64x1x1 .f32) : cell b (Host.sqrt s) = sqrt (cell b s) := rfl

/-! ## Broadcasts -/

/-- A scalar constant spread over the stack is, on each matrix, the same scalar spread over the matrix. -/
theorem mat_splat (b : Fin 64) (w : BitVec 32) (h : S_.BroadcastsInDim S64x512x512 (![] : Fin 0 → Fin S64x512x512.rank)) :
    mat b (broadcastInDim S64x512x512 ![] h (constant (F := Ideal) S_ .f32 w))
      = broadcast S512x512 (Scalar.ofBits (F := Ideal) .f32 w) := rfl

/-- One matrix repeated along a new leading axis: every matrix of the stack is that matrix. -/
theorem mat_stack (b : Fin 64) (I : S512x512.Idx → α)
    (h : S512x512.BroadcastsInDim S64x512x512 (![1, 2] : Fin 2 → Fin S64x512x512.rank)) :
    mat b (broadcastInDim S64x512x512 ![1, 2] h I) = I := by
  funext ij
  refine broadcastInDim_apply _ h I _ ij fun a => ?_
  match a with
  | ⟨0, _⟩ => rfl
  | ⟨1, _⟩ => rfl

/-- A per-matrix number spread over its matrix: on matrix `b` it is number `b` spread over one matrix. -/
theorem mat_spread (b : Fin 64) (s : S64x1x1.Idx → α)
    (h : S64x1x1.BroadcastsInDim S64x512x512 (![0, 1, 2] : Fin 3 → Fin S64x512x512.rank)) (h' : S1x1.Broadcasts S512x512) :
    mat b (broadcastInDim S64x512x512 ![0, 1, 2] h s) = broadcastTo S512x512 (cell b s) h' := by
  funext ij
  show broadcastInDim S64x512x512 ![0, 1, 2] h s (ix3 b (ij 0) (ij 1)) = s (ix3 b (0 : Fin 1) (0 : Fin 1))
  refine broadcastInDim_apply _ h s _ _ fun a => ?_
  match a with
  | ⟨0, _⟩ => rfl
  | ⟨1, _⟩ => rfl
  | ⟨2, _⟩ => rfl

/-! ## The batched product on one matrix -/

/-- The batched product's left operand index at output (b, i, j) and inner position c is (b, i, c). -/
theorem D3_lhs (b : Fin 64) (i j c : Fin 512) :
    D3.lhsIdx (ix3 b i j) ((contrEquiv1 D3 512 rfl rfl).symm c) = ix3 b i c := by
  funext a; apply Fin.ext
  match a with
  | ⟨0, _⟩ => rfl
  | ⟨1, _⟩ => rfl
  | ⟨2, _⟩ => rfl

/-- Its right operand index is (b, c, j). -/
theorem D3_rhs (b : Fin 64) (i j c : Fin 512) :
    D3.rhsIdx (ix3 b i j) ((contrEquiv1 D3 512 rfl rfl).symm c) = ix3 b c j := by
  funext a; apply Fin.ext
  match a with
  | ⟨0, _⟩ => rfl
  | ⟨1, _⟩ => rfl
  | ⟨2, _⟩ => rfl

/-- The single product's left operand index at output (i, j) and inner position c is (i, c). -/
theorem D2_lhs (i j c : Fin 512) : D2.lhsIdx (ix2 i j) ((contrEquiv1 D2 512 rfl rfl).symm c) = ix2 i c := by
  funext a; apply Fin.ext
  match a with
  | ⟨0, _⟩ => rfl
  | ⟨1, _⟩ => rfl

/-- Its right operand index is (c, j). -/
theorem D2_rhs (i j c : Fin 512) : D2.rhsIdx (ix2 i j) ((contrEquiv1 D2 512 rfl rfl).symm c) = ix2 c j := by
  funext a; apply Fin.ext
  match a with
  | ⟨0, _⟩ => rfl
  | ⟨1, _⟩ => rfl

/-- Matrix `b` of a batched product is the product of the operands' matrices `b`, as the kernel forms it: operands
    narrowed (the identity on extended reals), accumulated into zeros.  Both are the sum over the 512 inner positions
    `c` of `A (b, i, c) * B (b, c, j)`. -/
theorem mat_dot (b : Fin 64) (A B : FVec Ideal S64x512x512 .f32) (hb : FTy.bits .bf16 < FTy.bits .f32) :
    mat b (Host.dotGeneral D3 none A B)
      = matmul D2 none (truncf .bf16 (mat b A) hb) (truncf .bf16 (mat b B) hb) (constant S512x512 .f32 0x00000000#32) := by
  funext ij
  obtain ⟨i, j, rfl⟩ : ∃ (i j : Fin 512), ij = ix2 i j := ⟨ij 0, ij 1, eq_ix2 ij⟩
  show FloatOps.dotGeneral D3 none .single A B (ix3 b i j)
    = FloatOps.matmul D2 none (truncf .bf16 (mat b A) hb) (truncf .bf16 (mat b B) hb) (constant S512x512 .f32 0x00000000#32) (ix2 i j)
  rw [Ideal.dotGeneral_apply, Ideal.matmul_constant_zero_apply,
    ← Equiv.sum_comp (contrEquiv1 D3 512 rfl rfl).symm, ← Equiv.sum_comp (contrEquiv1 D2 512 rfl rfl).symm]
  refine Finset.sum_congr rfl fun c _ => ?_
  rw [D3_lhs, D3_rhs, D2_lhs, D2_rhs]
  rfl

/-! ## The sum of squares of one matrix -/

/-- A sum over the stack's indices whose leading coordinate is `b` is the sum over rows of the sums over columns of
    matrix `b`: those indices are exactly the (b, r, c). -/
theorem sum_batch (b : Fin 64) (f : S64x512x512.Idx → EReal) (P : S64x512x512.Idx → Prop) [DecidablePred P]
    (hP : ∀ i, P i ↔ i 0 = b) :
    ∑ i ∈ Finset.univ.filter P, f i = ∑ r : Fin 512, ∑ c : Fin 512, f (ix3 b r c) := by
  rw [← Fintype.sum_prod_type' (f := fun (r c : Fin 512) => f (ix3 b r c))]
  refine Finset.sum_bij' (fun i _ => ((i 1, i 2) : Fin 512 × Fin 512)) (fun p _ => ix3 b p.1 p.2) ?_ ?_ ?_ ?_ ?_
  · intro i _; exact Finset.mem_univ _
  · intro p _; exact Finset.mem_filter.mpr ⟨Finset.mem_univ _, (hP _).mpr rfl⟩
  · intro i hi
    have h0 : i 0 = b := (hP i).mp (Finset.mem_filter.mp hi).2
    rw [← h0]; exact (eq_ix3 i).symm
  · intro p _; rfl
  · intro i hi
    have h0 : i 0 = b := (hP i).mp (Finset.mem_filter.mp hi).2
    rw [← h0]; exact congrArg f (eq_ix3 i)

/-- The host's sum of `X * X` over the two matrix axes, at `b`: zero plus the sum over all (r, c) of matrix `b`. -/
theorem hostSumsq_apply (b : Fin 64) (X : FVec Ideal S64x512x512 .f32) (hR : S64x512x512.ReducesTo [1, 2] S64)
    (hS : 0 < S_.numel) :
    Host.reduceAdd (mulf X X) (constant S_ .f32 0x00000000#32) hR hS (ix1 b)
      = ∑ r : Fin 512, ∑ c : Fin 512, X (ix3 b r c) * X (ix3 b r c) := by
  show Ideal.ofBits .f32 0x00000000#32 + ∑ i ∈ Finset.univ.filter (fun i => hR.drop i = ix1 b), X i * X i = _
  rw [Ideal.ofBits_zero_f32, zero_add]
  refine sum_batch b (fun i => X i * X i) _ fun i => ⟨fun e => ?_, fun e => ?_⟩
  · apply Fin.ext
    have := congrArg Fin.val (congrFun e 0)
    rwa [Shape.ReducesTo.drop_apply_val_of_eq hR i 0 0] at this
  · funext a
    match a with
    | ⟨0, _⟩ =>
      exact Fin.ext ((Shape.ReducesTo.drop_apply_val_of_eq hR i 0 0).trans (congrArg Fin.val e))

/-- The kernel's sum of squares of a matrix `x`: each row summed, the row sums stood in a column, the column
    summed; at its one index it is the sum over rows of the sums over columns. -/
theorem sumsq_apply (x : FVec Ideal S512x512 .f32) (h1 : S512x512.Reduces [1] S512) (h2 : S512.ShapeCasts S512x1)
    (h3 : S512x1.Reduces [0] S1) (h4 : S1.ShapeCasts S1x1) (hφ : FKind.Formats .f32)
    (hacc : (0x00000000#32 : BitVec 32) = FKind.add.neutral .f32 hφ) (y : S1x1.Idx) :
    shapeCast S1x1 (multiReduction .add [0] S1 (shapeCast S512x1 (multiReduction .add [1] S512 (mulf x x) 0x00000000#32 h1 hφ hacc) h2)
        0x00000000#32 h3 hφ hacc) h4 y
      = ∑ r : Fin 512, ∑ c : Fin 512, x (ix2 r c) * x (ix2 r c) := by
  have hy0 : (y 0).val < 1 := (y 0).isLt
  have hy1 : (y 1).val < 1 := (y 1).isLt
  rw [shapeCast_apply _ h4 y (ix1 (0 : Fin 1)) (by
    rw [Shape.rowMajor_val_one, Shape.rowMajor_val_two]
    show (0 : ℕ) = (y 0).val * 1 + (y 1).val
    omega)]
  rw [Ideal.multiReduction_add_single]
  refine Finset.sum_congr rfl fun (r : Fin 512) _ => ?_
  rw [show h3.lift (ix1 (0 : Fin 1)) r = ix2 r (0 : Fin 1) from
    funext fun a => Fin.ext (match a with | ⟨0, _⟩ => rfl | ⟨1, _⟩ => rfl)]
  refine (Cert.LibKeepdims.shapeCast_a_a1_apply (a := 512) _ h2 r (0 : Fin 1)).trans ?_
  rw [Ideal.multiReduction_add_single]
  refine Finset.sum_congr rfl fun (c : Fin 512) _ => ?_
  rw [show h1.lift (ix1 r) c = ix2 r c from
    funext fun a => Fin.ext (match a with | ⟨0, _⟩ => rfl | ⟨1, _⟩ => rfl)]
  rfl

/-- Number `b` of the reference's stack of sums of squares is the kernel's sum of squares of matrix `b`. -/
theorem cell_sumsq (b : Fin 64) (X : FVec Ideal S64x512x512 .f32) (hR : S64x512x512.ReducesTo [1, 2] S64)
    (hS : 0 < S_.numel) (hB : S64.BroadcastsInDim S64x1x1 (![0] : Fin 1 → Fin S64x1x1.rank))
    (h1 : S512x512.Reduces [1] S512) (h2 : S512.ShapeCasts S512x1)
    (h3 : S512x1.Reduces [0] S1) (h4 : S1.ShapeCasts S1x1) (hφ : FKind.Formats .f32)
    (hacc : (0x00000000#32 : BitVec 32) = FKind.add.neutral .f32 hφ) :
    cell b (broadcastInDim S64x1x1 ![0] hB (Host.reduceAdd (mulf X X) (constant S_ .f32 0x00000000#32) hR hS))
      = shapeCast S1x1 (multiReduction .add [0] S1 (shapeCast S512x1
          (multiReduction .add [1] S512 (mulf (mat b X) (mat b X)) 0x00000000#32 h1 hφ hacc) h2) 0x00000000#32 h3 hφ hacc) h4 := by
  funext y
  rw [sumsq_apply]
  show broadcastInDim S64x1x1 ![0] hB (Host.reduceAdd (mulf X X) (constant S_ .f32 0x00000000#32) hR hS)
      (ix3 b (0 : Fin 1) (0 : Fin 1)) = _
  rw [broadcastInDim_apply _ hB _ _ (ix1 b) (fun a => match a with | ⟨0, _⟩ => rfl), hostSumsq_apply]
  rfl

end Cert.BatchSlice

end
-- ==== Proof.KernelStages.lean ====
/-
  The Newton-Schulz iteration, stage by stage.  For one grid point the kernel loads matrix `b` of the stack `X` and the
  matrix `I`, and computes: the Frobenius norm `n = sqrt (sum of squares of X_b)`; `Y0 = X_b / n`, `Z0 = I`; five times
  `T = 1/2 * (3 * I - Z * Y)`, `Y' = Y * T`, `Z' = T * Z`; and finally `Y5 * sqrt n`.  The reference computes the same
  stages for all 64 matrices at once.  Each theorem here says that one intermediate value of the kernel is matrix `b`
  of the reference's corresponding intermediate stack; each follows from the previous ones by reading the stage's one
  operation on matrix `b` (the module on one matrix of a stack).  No law of arithmetic beyond regrouping of sums is
  used, so nothing here needs the inputs to be finite.
-/
import proofs.«124815_j62749472194673_1_alg».proof.Proof.Gen.KernelIdeal.Skeleton
import proofs.«124815_j62749472194673_1_alg».proof.Proof.Gen.ReferenceIdeal.Run
import proofs.«124815_j62749472194673_1_alg».proof.Proof.BatchSlice
import Idealize.ShloMosaic.Lib.ValueLayout

set_option maxRecDepth 16384

noncomputable section

namespace Cert.Stages

open Idealize.ShloMosaic Idealize.ShloMosaic.ValueIdx
open Cert.BatchSlice
open Cert.ReferenceIdeal (S64x512x512 S64x1x1 S64 S_)
open Cert.KernelIdeal (S512x512 S1x512x512 S512 S512x1 S1 S1x1)
open Cert.KernelIdeal.Gen
open Cert.ReferenceIdeal.Value

variable (V0 : Valuation Cert.ReferenceIdeal.τ Cert.ReferenceIdeal.sig (Elt Ideal))
variable (b : Fin 64) (v0 : Vec Ideal S1x512x512 .f32) (v10 : Vec Ideal S512x512 .f32)

/-- The stack of matrices and the matrix `I` the reference starts from. -/
abbrev argX : FVec Ideal S64x512x512 .f32 := V0 (Proc.devRef .tc Cert.ReferenceIdeal.main_arg0)
abbrev argI : FVec Ideal S512x512 .f32 := V0 (Proc.devRef .tc Cert.ReferenceIdeal.main_arg1)

/-- The bit widths' order that the narrowing to bf16 carries. -/
theorem hb : FTy.bits .bf16 < FTy.bits .f32 := by decide

/-- What the reference returns: `Y5 * sqrt n`, for the whole stack. -/
abbrev result : FVec Ideal S64x512x512 .f32 :=
  mulf (Host.dotGeneral (φ₁ := .f32) (φ₂ := .f32) D3 none (res_main_v37 V0) (res_main_v44 V0))
    (broadcastInDim S64x512x512 ![0, 1, 2] Cert.ReferenceIdeal.Facts₀.bcast_S64x1x1_S64x512x512_0_1_2 (Host.sqrt (res_main_v3 V0)))

/-! ## A loaded block and a stored block, over plain variables -/

/-- A [1, 512, 512] block whose entries are those of matrix `b` of a stack, with its unit axis dropped, is that matrix. -/
theorem pay2_of (x0 : Vec Ideal S1x512x512 .f32) (X : FVec Ideal S64x512x512 .f32) (b : Fin 64)
    (h : ∀ y : S1x512x512.Idx, x0 y = X (ix3 b (y 1) (y 2))) : k0_pay2 x0 = mat b X := by
  funext ij
  obtain ⟨i, j, rfl⟩ : ∃ (i j : Fin 512), ij = ix2 i j := ⟨ij 0, ij 1, eq_ix2 ij⟩
  unfold k0_pay2
  exact (shapeCast_1ab_ab_apply x0 _ i j).trans (h _)

/-- Matrix `b` of a stack `G` with a unit axis put in front, read at `y`, is `G` at any index whose coordinates
    are `b` and `y`'s last two. -/
theorem out_block (G : FVec Ideal S64x512x512 .f32) (b : Fin 64) (h : S512x512.ShapeCasts S1x512x512)
    (y : S1x512x512.Idx) (k : S64x512x512.Idx)
    (hk0 : (k 0).val = b.val) (hk1 : (k 1).val = (y 1).val) (hk2 : (k 2).val = (y 2).val) :
    shapeCast S1x512x512 (mat b G) h y = G k := by
  obtain ⟨u, i, j, rfl⟩ : ∃ (u : Fin 1) (i j : Fin 512), y = ix3 u i j := ⟨y 0, y 1, y 2, eq_ix3 y⟩
  refine (shapeCast_ab_1ab_apply (mat b G) h u i j).trans ?_
  show G (ix3 b i j) = G k
  refine congrArg G (funext fun a => Fin.ext ?_)
  match a with
  | ⟨0, _⟩ => exact hk0.symm
  | ⟨1, _⟩ => exact hk1.symm
  | ⟨2, _⟩ => exact hk2.symm

section
variable (hx : k0_pay2 v0 = mat b (argX V0)) (hI : v10 = argI V0)
include hx hI

/-- The loaded matrix `I` is every matrix of the reference's stack of copies of `I`. -/
theorem I_eq : v10 = mat b (res_main_v6 V0) := by
  unfold res_main_v6
  rw [mat_stack, hI]

/-- The norm `n`: the square root of the sum of squares of matrix `b`. -/
theorem norm_eq : k0_pay3 v0 = cell b (res_main_v3 V0) := by
  unfold k0_pay3 res_main_v3
  rw [hx, cell_hostSqrt]
  exact congrArg sqrt (cell_sumsq b (argX V0) _ _ _ _ _ _ _ (.inl rfl) rfl).symm

/-- `Z0 = I`, narrowed. -/
theorem Z0_eq : k0_pay4 v10 = truncf .bf16 (mat b (res_main_v6 V0)) hb := by
  unfold k0_pay4
  rw [← I_eq V0 b v0 v10 hx hI]

/-- `Y0 = X_b / n`, narrowed. -/
theorem Y0_eq : k0_pay5 v0 = truncf .bf16 (mat b (res_main_v5 V0)) hb := by
  unfold k0_pay5 res_main_v5
  rw [hx, norm_eq V0 b v0 v10 hx hI, mat_hostDivf, mat_spread b _ _ Cert.KernelIdeal.Facts₀.broadcasts_S1x1_S512x512]

/-- `T1 = 1/2 * (3 * I - Z0 * Y0)`. -/
theorem T1_eq : k0_pay6 v0 v10 = truncf .bf16 (mat b (res_main_v12 V0)) hb := by
  unfold k0_pay6 res_main_v12
  rw [Z0_eq V0 b v0 v10 hx hI, Y0_eq V0 b v0 v10 hx hI, I_eq V0 b v0 v10 hx hI]
  simp only [mat_mulf, mat_subf, mat_dot _ _ _ hb]
  rfl

/-- `Z1 = T1 * Z0`. -/
theorem Z1_eq : k0_pay7 v0 v10 = truncf .bf16 (mat b (res_main_v14 V0)) hb := by
  unfold k0_pay7 res_main_v14
  rw [T1_eq V0 b v0 v10 hx hI, Z0_eq V0 b v0 v10 hx hI]
  simp only [mat_dot _ _ _ hb]

/-- `Y1 = Y0 * T1`. -/
theorem Y1_eq : k0_pay8 v0 v10 = truncf .bf16 (mat b (res_main_v13 V0)) hb := by
  unfold k0_pay8 res_main_v13
  rw [T1_eq V0 b v0 v10 hx hI, Y0_eq V0 b v0 v10 hx hI]
  simp only [mat_dot _ _ _ hb]

/-- `T2 = 1/2 * (3 * I - Z1 * Y1)`. -/
theorem T2_eq : k0_pay9 v0 v10 = truncf .bf16 (mat b (res_main_v20 V0)) hb := by
  unfold k0_pay9 res_main_v20
  rw [Z1_eq V0 b v0 v10 hx hI, Y1_eq V0 b v0 v10 hx hI, I_eq V0 b v0 v10 hx hI]
  simp only [mat_mulf, mat_subf, mat_dot _ _ _ hb]
  rfl

/-- `Z2 = T2 * Z1`. -/
theorem Z2_eq : k0_pay10 v0 v10 = truncf .bf16 (mat b (res_main_v22 V0)) hb := by
  unfold k0_pay10 res_main_v22
  rw [T2_eq V0 b v0 v10 hx hI, Z1_eq V0 b v0 v10 hx hI]
  simp only [mat_dot _ _ _ hb]

/-- `Y2 = Y1 * T2`. -/
theorem Y2_eq : k0_pay11 v0 v10 = truncf .bf16 (mat b (res_main_v21 V0)) hb := by
  unfold k0_pay11 res_main_v21
  rw [T2_eq V0 b v0 v10 hx hI, Y1_eq V0 b v0 v10 hx hI]
  simp only [mat_dot _ _ _ hb]

/-- `3 * I - Z2 * Y2`, the part of `T3` before the halving. -/
theorem R3_eq : k0_pay12 v0 v10
    = mat b (subf (mulf (broadcastInDim S64x512x512 ![] Cert.ReferenceIdeal.Facts₀.bcast_S_S64x512x512 (constant S_ .f32 0x40400000#32))
        (res_main_v6 V0)) (Host.dotGeneral (φ₁ := .f32) (φ₂ := .f32) D3 none (res_main_v22 V0) (res_main_v21 V0))) := by
  unfold k0_pay12
  rw [Z2_eq V0 b v0 v10 hx hI, Y2_eq V0 b v0 v10 hx hI, I_eq V0 b v0 v10 hx hI]
  simp only [mat_mulf, mat_subf, mat_dot _ _ _ hb]
  rfl

/-- The stored block: iterations three to five and the final scaling by `sqrt n`, with a unit axis put in front. -/
theorem out_eq : k0_pay1 (k0_pay3 v0) v10 (k0_pay10 v0 v10) (k0_pay11 v0 v10) (k0_pay12 v0 v10) (Scalar.ofBits .f32 0x3F000000#32)
    = shapeCast S1x512x512 (mat b (result V0)) Cert.KernelIdeal.Facts₀.shapeCasts_S512x512_S1x512x512 := by
  unfold k0_pay1
  rw [norm_eq V0 b v0 v10 hx hI, Z2_eq V0 b v0 v10 hx hI, Y2_eq V0 b v0 v10 hx hI, R3_eq V0 b v0 v10 hx hI,
    I_eq V0 b v0 v10 hx hI]
  simp only [result, res_main_v37, res_main_v44, res_main_v38, res_main_v36, res_main_v30, res_main_v29, res_main_v28,
    mat_mulf, mat_subf, mat_dot _ _ _ hb, mat_spread b _ _ Cert.KernelIdeal.Facts₀.broadcasts_S1x1_S512x512,
    cell_hostSqrt]
  rfl

end

end Cert.Stages

end
-- ==== Proof.Blocks.lean ====
/-
  From blocks to the whole array.  Grid point `t` (of 64) fetches matrix `t` of the stack `X` and the whole matrix `I`,
  and writes back one [1, 512, 512] block: row `t` of the output stack.  The 64 blocks tile the output, so the output
  ends as the one stack whose matrix `t` is what point `t` computed; by the stage-by-stage module that stack is the
  reference's result term, read at a valuation that agrees with the kernel's memory on the two arguments.
-/
import proofs.«124815_j62749472194673_1_alg».proof.Proof.Gen.KernelIdeal.Frame
import proofs.«124815_j62749472194673_1_alg».proof.Proof.Gen.KernelIdeal.Value
import proofs.«124815_j62749472194673_1_alg».proof.Proof.KernelStages
import Idealize.ShloMosaic.Lib.Pipeline.Value

set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen
open Cert.BatchSlice Cert.Stages

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the stack's windows sit at block (t, 0, 0), the window of `I` at (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0)

/-- The grid point as a batch number. -/
abbrev batch (t : Fin cfg0.N) : Fin 64 := Fin.cast N_0 t

/-- The block of `X` at point `t` holds matrix `t` of `X`. -/
theorem iblk0_apply (c : Dev nD) (t : Fin cfg0.N) (y : S1x512x512.Idx) :
    (iblk m c 0 t : Vec Ideal S1x512x512 .f32) y
      = (m ((c : Thread nD τ).loc main_arg0) : S64x512x512.Idx → Elt Ideal .f32) (ix3 (batch t) (y 1) (y 2)) := by
  obtain ⟨e0, e1, e2, -⟩ := idx_facts t
  have hy0 : (y 0).val < 1 := (y 0).isLt
  unfold iblk
  rw [View.read_apply]
  show V m c main_arg0 _ = m ((c : Thread nD τ).loc main_arg0) _
  unfold V
  congr 1
  funext a
  apply Fin.ext
  match a with
  | ⟨0, _⟩ => show win0_0.index t (0 : Fin 3) * 1 + 1 * (y 0).val = t.val; omega
  | ⟨1, _⟩ => show win0_0.index t (1 : Fin 3) * 512 + 1 * (y 1).val = (y 1).val; omega
  | ⟨2, _⟩ => show win0_0.index t (2 : Fin 3) * 512 + 1 * (y 2).val = (y 2).val; omega

/-- The block of `I` at every point is the whole of `I`. -/
theorem iblk1_eq (c : Dev nD) (t : Fin cfg0.N) :
    (iblk m c 1 t : Vec Ideal S512x512 .f32) = (m ((c : Thread nD τ).loc main_arg1) : S512x512.Idx → Elt Ideal .f32) := by
  obtain ⟨-, -, -, e0, e1, -⟩ := idx_facts t
  funext y
  unfold iblk
  rw [View.read_apply]
  show V m c main_arg1 _ = m ((c : Thread nD τ).loc main_arg1) _
  unfold V
  congr 1
  funext a
  apply Fin.ext
  match a with
  | ⟨0, _⟩ => show win0_1.index t (0 : Fin 2) * 512 + 1 * (y 0).val = (y 0).val; omega
  | ⟨1, _⟩ => show win0_1.index t (1 : Fin 2) * 512 + 1 * (y 1).val = (y 1).val; omega

section
variable (V0 : Valuation Cert.ReferenceIdeal.τ Cert.ReferenceIdeal.sig (Elt Ideal)) (c : Dev nD)
variable (h0 : argX V0 = (m ((c : Thread nD τ).loc main_arg0) : S64x512x512.Idx → Elt Ideal .f32))
variable (h1 : argI V0 = (m ((c : Thread nD τ).loc main_arg1) : S512x512.Idx → Elt Ideal .f32))
include h0 h1

/-- What point `t` writes back is block `t` of the reference's result stack. -/
theorem flushed_eq (t : Fin cfg0.N) :
    (dats m 0 c).flushed 2 t = ((cfg0.win 2).blk t).view.read (Elt Ideal) (result V0) := by
  obtain ⟨-, -, -, -, -, e0, e1, e2⟩ := idx_facts t
  rw [Cert.KernelIdeal.Value.flushed2]
  unfold out0_2
  rw [View.canon_unit_zero hz3]
  simp only [View.ld_unit_zero (S := S1x512x512) hz3, View.ld_unit_zero (S := S512x512) hz2]
  rw [out_eq V0 (batch t) (iblk m c 0 t) (iblk m c 1 t)
    (pay2_of _ _ _ fun y => (iblk0_apply m c t y).trans (congrFun h0.symm _))
    ((iblk1_eq m c t).trans h1.symm)]
  funext y
  have hy0 : (y 0).val < 1 := (y 0).isLt
  refine out_block (result V0) (batch t) _ y _ ?_ ?_ ?_
  · show win0_2.index t (0 : Fin 3) * 1 + 1 * (y 0).val = t.val; omega
  · show win0_2.index t (1 : Fin 3) * 512 + 1 * (y 1).val = (y 1).val; omega
  · show win0_2.index t (2 : Fin 3) * 512 + 1 * (y 2).val = (y 2).val; omega

end

/-- An index of the output stack is in point `t`'s block iff each coordinate is in the block's range. -/
theorem mem_blk (t : Fin cfg0.N) (i : S64x512x512.Idx) :
    i ∈ ((cfg0.win 2).blk t).view.set ↔ ∀ a : Fin 3, win0_2.index t a * S1x512x512.size a ≤ (i a).val
      ∧ (i a).val < win0_2.index t a * S1x512x512.size a + S1x512x512.size a := by
  show i ∈ ((View.whole main_v0).slice (win0_2.rect t)).set ↔ _
  rw [View.set_slice_whole, Rect.mem_set_unit]
  exact Iff.rfl

/-- Every index (b, r, c) of the output stack is in the block of point `b`. -/
theorem cover (i : S64x512x512.Idx) :
    ∃ t : Fin cfg0.N, (cfg0.win 2).flush t = true ∧ i ∈ ((cfg0.win 2).blk t).view.set := by
  have hi0 : (i 0).val < 64 := (i 0).isLt
  have hi1 : (i 1).val < 512 := (i 1).isLt
  have hi2 : (i 2).val < 512 := (i 2).isLt
  let t : Fin cfg0.N := Fin.cast N_0.symm ⟨(i 0).val, hi0⟩
  obtain ⟨-, -, -, -, -, e0, e1, e2⟩ := idx_facts t
  have ht : t.val = (i 0).val := rfl
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 512 ≤ (i 2).val ∧ (i 2).val < win0_2.index t (2 : Fin 3) * 512 + 512; omega

/-- The output stack after the run is the reference's result term, read at any valuation that agrees with the kernel's
    memory on the two arguments. -/
theorem final (V0 : Valuation Cert.ReferenceIdeal.τ Cert.ReferenceIdeal.sig (Elt Ideal)) (c : Dev nD)
    (h0 : argX V0 = (m ((c : Thread nD τ).loc main_arg0) : S64x512x512.Idx → Elt Ideal .f32))
    (h1 : argI V0 = (m ((c : Thread nD τ).loc main_arg1) : S512x512.Idx → Elt Ideal .f32)) :
    (dats m 0 c).arrAt 2 cfg0.N = result V0 :=
  (dats m 0 c).arrAt_eq_of_cover 2 (result V0) (fun t _ => flushed_eq m V0 c h0 h1 t) cover

/-- The kernel's run: the output stack at the reference's result term, the arguments unchanged. -/
theorem run (V0 : Dev nD → Valuation Cert.ReferenceIdeal.τ Cert.ReferenceIdeal.sig (Elt Ideal))
    (h0 : ∀ c : Dev nD, argX (V0 c) = (m ((c : Thread nD τ).loc main_arg0) : S64x512x512.Idx → Elt Ideal .f32))
    (h1 : ∀ c : Dev nD, argI (V0 c) = (m ((c : Thread nD τ).loc main_arg1) : S512x512.Idx → Elt Ideal .f32)) :
    θ_run defs (onTc (τ := τ) (main (F := Ideal))) ⟨m, fun _ => 0, ρ⟩ fun r => ∀ c : Dev nD,
      r.2.mem ((c : Thread nD τ).loc main_v0) = result (V0 c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m (V0 c) c (h0 c) (h1 c)), (h c).2⟩)
    (Cert.KernelIdeal.Value.run_blocks m ρ)

end Cert.KernelIdeal.Blocks

end
-- ==== Proof.lean ====
/-
  The matrix square root by the Newton-Schulz iteration: kernel against reference, over the extended reals.

  Both programs take a stack `X` of 64 matrices of size 512 x 512 and one matrix `I`, and compute for every matrix
  `X_b` of the stack: the norm `n = sqrt (sum of the squares of the entries of X_b)`, `Y = X_b / n`, `Z = I`, then five
  times `T = 1/2 * (3 * I - Z * Y)`, `Y := Y * T`, `Z := T * Z`, and return `Y * sqrt n`.  The kernel does this for one
  matrix per grid point (64 points), summing the squares row by row and then down the column of row sums, and rounding
  the operands of every matrix product to a narrower format; the reference does it for the whole stack at once, with one
  sum over both matrix axes and batched products.  Over the extended reals a change of format is the identity, a
  matrix product is the plain sum over the inner index on both sides, and a sum does not depend on how its terms are
  grouped; so the two programs compute the same function, operation by operation.  No step moves a factor across a
  sum or cancels anything, so the finiteness of the inputs is never used.

  The parts: one matrix of a stack under each operation of the reference (BatchSlice); the kernel's intermediate values
  as the reference's on one matrix, stage by stage (KernelStages); the 64 written blocks as the whole output stack (Blocks).
  The kernel read over the extended reals is the kernel's own text, nothing rewritten, so that conjunct is trivial.
-/
import proofs.«124815_j62749472194673_1_alg».proof.Defs
import proofs.«124815_j62749472194673_1_alg».proof.Proof.Gen.Kernel
import proofs.«124815_j62749472194673_1_alg».proof.Proof.Gen.Kernel.Skeleton
import proofs.«124815_j62749472194673_1_alg».proof.Proof.Gen.Kernel.Launch
import proofs.«124815_j62749472194673_1_alg».proof.Proof.Gen.Kernel.Points
import proofs.«124815_j62749472194673_1_alg».proof.Proof.Gen.Kernel.Frame
import proofs.«124815_j62749472194673_1_alg».proof.Proof.Gen.KernelIdeal
import proofs.«124815_j62749472194673_1_alg».proof.Proof.Gen.KernelIdeal.Skeleton
import proofs.«124815_j62749472194673_1_alg».proof.Proof.Gen.KernelIdeal.Launch
import proofs.«124815_j62749472194673_1_alg».proof.Proof.Gen.KernelIdeal.Points
import proofs.«124815_j62749472194673_1_alg».proof.Proof.Gen.KernelIdeal.Frame
import proofs.«124815_j62749472194673_1_alg».proof.Proof.Gen.ReferenceIdeal
import proofs.«124815_j62749472194673_1_alg».proof.Proof.Gen.Pre_finite_inputs
import proofs.«124815_j62749472194673_1_alg».proof.Proof.Gen.KernelIdeal.Value
import proofs.«124815_j62749472194673_1_alg».proof.Proof.Gen.ReferenceIdeal.Run
import proofs.«124815_j62749472194673_1_alg».proof.Proof.Blocks
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the same stack: the reference's result term of its own arguments, which the kernel's output
    equals because the two memories agree on the arguments. -/
theorem algebraic : Cert.algebraic_KernelIdeal_ReferenceIdeal := by
  intro m ρ m' ρ' _ hagree
  refine ⟨fun c => Cert.Stages.result (StableHlo.launchContents m' c), ?_, ?_⟩
  · exact Cert.KernelIdeal.Blocks.run m ρ (fun c => StableHlo.launchContents m' c)
      (fun c => (hagree c).1) (fun c => (hagree c).2)
  · exact (θ_run Cert.ReferenceIdeal.defs _ _).mono (fun _ h c => ⟨(h c).1, (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
